-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x16 : Shape := ⟨3, ![128, 1024, 16]⟩
abbrev S16x512 : Shape := ⟨2, ![16, 512]⟩
abbrev S1024x512 : Shape := ⟨2, ![1024, 512]⟩
abbrev S512 : Shape := ⟨1, ![512]⟩
abbrev S_ : Shape := ⟨0, ![]⟩

class Facts : Prop where
  bcast_S_S128x1024x16 : S_.BroadcastsInDim S128x1024x16 (![] : Fin 0 → Fin S128x1024x16.rank)
  reducesTo_S128x1024x16_S_d0_1_2 : S128x1024x16.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S128x1024x16 .f32) (main_arg1 : FVec F S16x512 .f32) (main_arg2 : FVec F S16x512 .f32) (main_arg3 : FVec F S1024x512 .f32) (main_arg4 : FVec F S512 .f32) (main_arg5 : FVec F S512 .f32) : IVec S_ 1 :=
  let main_v0 : FVec F S128x1024x16 .f32 := Host.absf main_arg0
  let main_cst : FVec F S_ .f32 := constant S_ .f32 0x7F800000#32
  let main_v1 : FVec F S128x1024x16 .f32 := broadcastInDim S128x1024x16 ![] bcast_S_S128x1024x16 main_cst
  let main_v2 : IVec S128x1024x16 1 := cmpf .olt main_v0 main_v1
  let main_c : IVec S_ 1 := constantI S_ 1 1#1
  let main_v3 : IVec S_ 1 := (fun x v => Host.reduce IntOp.andi x v reducesTo_S128x1024x16_S_d0_1_2 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16x512 .f32 := Host.absf main_arg2
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_v13 main_v16
-- ==== Kernel.lean ====
abbrev S128x1024x16 : Shape := ⟨3, ![128, 1024, 16]⟩
abbrev S16x512 : Shape := ⟨2, ![16, 512]⟩
abbrev S1024x512 : Shape := ⟨2, ![1024, 512]⟩
abbrev S512 : Shape := ⟨1, ![512]⟩
abbrev S_ : Shape := ⟨0, ![]⟩
abbrev S1x512 : Shape := ⟨2, ![1, 512]⟩
abbrev S128x1024x512 : Shape := ⟨3, ![128, 1024, 512]⟩
abbrev S1x1024x16 : Shape := ⟨3, ![1, 1024, 16]⟩
abbrev S1x1024x512 : Shape := ⟨3, ![1, 1024, 512]⟩
abbrev S1024x16 : Shape := ⟨2, ![1024, 16]⟩
abbrev S1024 : Shape := ⟨1, ![1024]⟩
abbrev S1024x1 : Shape := ⟨2, ![1024, 1]⟩

abbrev nBuf : Space → Nat
  | .hbm => 12
  | .vmem => 9
  | .smem => 0
  | _ => 0

abbrev bufTy : (tb : Table) → Fin (tcTables nBuf tb) → BufTy
  | .hbm, ⟨0, _⟩ => ⟨S128x1024x16, .f32⟩
  | .hbm, ⟨1, _⟩ => ⟨S16x512, .f32⟩
  | .hbm, ⟨2, _⟩ => ⟨S16x512, .f32⟩
  | .hbm, ⟨3, _⟩ => ⟨S1024x512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S128x1024x512, .f32⟩
  | .local _ .vmem, ⟨0, _⟩ => ⟨S1x1024x16, .f32⟩
  | .local _ .vmem, ⟨1, _⟩ => ⟨S1x1024x16, .f32⟩
  | .local _ .vmem, ⟨2, _⟩ => ⟨S16x512, .f32⟩
  | .local _ .vmem, ⟨3, _⟩ => ⟨S1x512, .f32⟩
  | .local _ .vmem, ⟨4, _⟩ => ⟨S1024x512, .f32⟩
  | .local _ .vmem, ⟨5, _⟩ => ⟨S1x512, .f32⟩
  | .local _ .vmem, ⟨6, _⟩ => ⟨S1x512, .f32⟩
  | .local _ .vmem, ⟨7, _⟩ => ⟨S1x1024x512, .f32⟩
  | .local _ .vmem, ⟨8, _⟩ => ⟨S1x1024x512, .f32⟩
  | _, _ => ⟨S128x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S16x512_S512_d0 : S16x512.ReducesTo [0] S512
  h_S_ : 0 < S_.numel
  bcast_S512_S1x512_1 : S512.BroadcastsInDim S1x512 (![1] : Fin 1 → Fin S1x512.rank)
  shapeCasts_S512_S1x512 : S512.ShapeCasts S1x512
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S1024x16_S16x512_S1024x512_1_0_0_1_n_n_wf : DotDims.WF S1024x16 S16x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x16.size a ≤ S128x1024x16.size a
  hwx0_0 : ∀ i : grid0.Coords, EltTy.bits .f32 = 32 ∨ (Rect.block (s := S128x1024x16) S1x1024x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S16x512.size a
  hwx0_1 : ∀ i : grid0.Coords, EltTy.bits .f32 = 32 ∨ (Rect.block (s := S16x512) S16x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S128x1024x512.size a
  hwx0_6 : ∀ i : grid0.Coords, EltTy.bits .f32 = 32 ∨ (Rect.block (s := S128x1024x512) S1x1024x512.size (cc0_transform_6 i) (hinb0_6 i)).WholeWords (EltTy.packing .f32)

variable [Facts₀]

def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf

abbrev win0_0 : Pipeline.Window sig grid0 :=
  Pipeline.Window.ofSpec (Memref.whole main_arg0) S1x1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x1024x16 : Shape := ⟨3, ![128, 1024, 16]⟩
abbrev S16x512 : Shape := ⟨2, ![16, 512]⟩
abbrev S1024x512 : Shape := ⟨2, ![1024, 512]⟩
abbrev S512 : Shape := ⟨1, ![512]⟩
abbrev S128x1024x512 : Shape := ⟨3, ![128, 1024, 512]⟩
abbrev S_ : Shape := ⟨0, ![]⟩
abbrev S1x1x512 : Shape := ⟨3, ![1, 1, 512]⟩
abbrev S1x1024x512 : Shape := ⟨3, ![1, 1024, 512]⟩
abbrev S128x1024 : Shape := ⟨2, ![128, 1024]⟩
abbrev S128x1024x1 : Shape := ⟨3, ![128, 1024, 1]⟩

abbrev nBuf : Space → Nat
  | .hbm => 59
  | .vmem => 0
  | .smem => 0
  | _ => 0

abbrev bufTy : (tb : Table) → Fin (tcTables nBuf tb) → BufTy
  | .hbm, ⟨0, _⟩ => ⟨S128x1024x16, .f32⟩
  | .hbm, ⟨1, _⟩ => ⟨S16x512, .f32⟩
  | .hbm, ⟨2, _⟩ => ⟨S16x512, .f32⟩
  | .hbm, ⟨3, _⟩ => ⟨S1024x512, .f32⟩
  | .hbm, ⟨4, _⟩ => ⟨S512, .f32⟩
  | .hbm, ⟨5, _⟩ => ⟨S512, .f32⟩
  | .hbm, ⟨6, _⟩ => ⟨S128x1024x512, .f32⟩
  | .hbm, ⟨7, _⟩ => ⟨S_, .f32⟩
  | .hbm, ⟨8, _⟩ => ⟨S512, .f32⟩
  | .hbm, ⟨9, _⟩ => ⟨S1x1x512, .f32⟩
  | .hbm, ⟨10, _⟩ => ⟨S128x1024x512, .f32⟩
  | .hbm, ⟨11, _⟩ => ⟨S128x1024x512, .f32⟩
  | .hbm, ⟨12, _⟩ => ⟨S1x1024x512, .f32⟩
  | .hbm, ⟨13, _⟩ => ⟨S128x1024x512, .f32⟩
  | .hbm, ⟨14, _⟩ => ⟨S128x1024x512, .f32⟩
  | .hbm, ⟨15, _⟩ => ⟨S_, .f32⟩
  | .hbm, ⟨16, _⟩ => ⟨S128x1024, .f32⟩
  | .hbm, ⟨17, _⟩ => ⟨S128x1024x1, .f32⟩
  | .hbm, ⟨18, _⟩ => ⟨S_, .f32⟩
  | .hbm, ⟨19, _⟩ => ⟨S128x1024x1, .f32⟩
  | .hbm, ⟨20, _⟩ => ⟨S128x1024x1, .f32⟩
  | .hbm, ⟨21, _⟩ => ⟨S_, .i32⟩
  | .hbm, ⟨22, _⟩ => ⟨S_, .f32⟩
  | .hbm, ⟨23, _⟩ => ⟨S128x1024, .f32⟩
  | .hbm, ⟨24, _⟩ => ⟨S128x1024x1, .f32⟩
  | .hbm, ⟨25, _⟩ => ⟨S_, .f32⟩
  | .hbm, ⟨26, _⟩ => ⟨S128x1024x1, .f32⟩
  | .hbm, ⟨27, _⟩ => ⟨S128x1024x1, .f32⟩
  | .hbm, ⟨28, _⟩ => ⟨S128x1024x512, .f32⟩
  | .hbm, ⟨29, _⟩ => ⟨S128x1024x512, .f32⟩
  | .hbm, ⟨30, _⟩ => ⟨S128x1024x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S128x1024, .f32⟩
  | .hbm, ⟨36, _⟩ => ⟨S128x1024x1, .f32⟩
  | .hbm, ⟨37, _⟩ => ⟨S128x1024x1, .f32⟩
  | .hbm, ⟨38, _⟩ => ⟨S128x1024x1, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S128x1024x1, .f32⟩
  | .hbm, ⟨44, _⟩ => ⟨S128x1024x1, .f32⟩
  | .hbm, ⟨45, _⟩ => ⟨S128x1024x512, .f32⟩
  | .hbm, ⟨46, _⟩ => ⟨S128x1024x512, .f32⟩
  | .hbm, ⟨47, _⟩ => ⟨S_, .f32⟩
  | .hbm, ⟨48, _⟩ => ⟨S128x1024x1, .f32⟩
  | .hbm, ⟨49, _⟩ => ⟨S128x1024x1, .f32⟩
  | .hbm, ⟨50, _⟩ => ⟨S128x1024x1, .f32⟩
  | .hbm, ⟨51, _⟩ => ⟨S128x1024x512, .f32⟩
  | .hbm, ⟨52, _⟩ => ⟨S128x1024x512, .f32⟩
  | .hbm, ⟨53, _⟩ => ⟨S1x1x512, .f32⟩
  | .hbm, ⟨54, _⟩ => ⟨S128x1024x512, .f32⟩
  | .hbm, ⟨55, _⟩ => ⟨S128x1024x512, .f32⟩
  | .hbm, ⟨56, _⟩ => ⟨S1x1x512, .f32⟩
  | .hbm, ⟨57, _⟩ => ⟨S128x1024x512, .f32⟩
  | .hbm, ⟨58, _⟩ => ⟨S128x1024x512, .f32⟩
  | _, _ => ⟨S128x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_2 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩

abbrev nD : Nat := 1
abbrev τ : Topo := Topo.v7x

variable {F : FTy → Type} [FloatOps F]

class Facts₀ : Prop where
  reducesTo_S16x512_S512_d0 : S16x512.ReducesTo [0] S512
  h_S_ : 0 < S_.numel
  bcast_S512_S1x1x512_2 : S512.BroadcastsInDim S1x1x512 (![2] : Fin 1 → Fin S1x1x512.rank)
  bcast_S1x1x512_S128x1024x512_0_1_2 : S1x1x512.BroadcastsInDim S128x1024x512 (![0, 1, 2] : Fin 3 → Fin S128x1024x512.rank)
  bcast_S1024x512_S1x1024x512_1_2 : S1024x512.BroadcastsInDim S1x1024x512 (![1, 2] : Fin 2 → Fin S1x1024x512.rank)
  bcast_S1x1024x512_S128x1024x512_0_1_2 : S1x1024x512.BroadcastsInDim S128x1024x512 (![0, 1, 2] : Fin 3 → Fin S128x1024x512.rank)
  reducesTo_S128x1024x512_S128x1024_d2 : S128x1024x512.ReducesTo [2] S128x1024
  bcast_S128x1024_S128x1024x1_0_1 : S128x1024.BroadcastsInDim S128x1024x1 (![0, 1] : Fin 2 → Fin S128x1024x1.rank)
  bcast_S_S128x1024x1 : S_.BroadcastsInDim S128x1024x1 (![] : Fin 0 → Fin S128x1024x1.rank)
  bcast_S128x1024x1_S128x1024x512_0_1_2 : S128x1024x1.BroadcastsInDim S128x1024x512 (![0, 1, 2] : Fin 3 → Fin S128x1024x512.rank)
  dot_S128x1024x16_S16x512_S128x1024x512_2_0_01_1_n_n_wf : DotDims.WF S128x1024x16 S16x512 S128x1024x512 [2] [0] [0, 1] [1] [] []

variable [Facts₀]

def dot_S128x1024x16_S16x512_S128x1024x512_2_0_01_1_n_n : DotDims S128x1024x16 S16x512 S128x1024x512 where
  lhsContracting := [2]
  rhsContracting := [0]
  lhsNonContracting := [0, 1]
  rhsNonContracting := [1]
  lhsBatch := []
  rhsBatch := []
  wf := dot_S128x1024x16_S16x512_S128x1024x512_2_0_01_1_n_n_wf

class Facts : Prop extends Facts₀ where

variable [Facts]
-- ==== Proof.LayerNormSpec.lean ====
/-
  The function both programs compute, over the extended reals, index by index.

  For a batch entry p, a position s and a hidden lane h the pre-normalisation value is
      hidden p s h = (Σ_f x[p,s,f] · W[f,h] + Σ_f b[f,h]) + emb[s,h],
  and the result is the layer normalisation of the row h ↦ hidden p s h, scaled and shifted lane by lane:
      G[p,s,h] = ((row h − μ) · rsqrt (Σ_k (row k − μ)² / 512 + ε)) · γ[h] + β[h],   μ = Σ_k row k / 512.
  The two constants are kept as the words the programs print (512.0 and the f32 nearest 1e-5): both programs carry the
  same words, so they are never evaluated here.
-/
import Idealize.ShloMosaic.PureOps.Ideal
import Idealize.ShloMosaic.Lib.ValueIdx

noncomputable section

namespace Cert.LayerNormSpec

open Idealize.ShloMosaic Idealize.ShloMosaic.ValueIdx

/-- The row length 512.0 as the f32 word both programs divide by. -/
def rowLen : EReal := Ideal.ofBits .f32 0x44000000#32

/-- The variance offset: the f32 word nearest 1e-5. -/
def varEps : EReal := Ideal.ofBits .f32 0x3727C5AC#32

/-- The value a row is normalised from: the projection of x[p,s,·] by W, plus the summed bias, plus the position's embedding. -/
def hidden (x : (⟨3, ![128, 1024, 16]⟩ : Shape).Idx → EReal) (W b : (⟨2, ![16, 512]⟩ : Shape).Idx → EReal)
    (emb : (⟨2, ![1024, 512]⟩ : Shape).Idx → EReal) (p : Fin 128) (s : Fin 1024) (h : Fin 512) : EReal :=
  ((∑ f : Fin 16, x (ix3 p s f) * W (ix2 f h)) + ∑ f : Fin 16, b (ix2 f h)) + emb (ix2 s h)

/-- The mean of a row of 512 entries. -/
def rowMean (row : Fin 512 → EReal) : EReal := Ideal.div (∑ k : Fin 512, row k) rowLen

/-- The centred row. -/
def centred (row : Fin 512 → EReal) (h : Fin 512) : EReal := row h - rowMean row

/-- The (biased) variance of a row: the mean of the squares of the centred entries. -/
def rowVar (row : Fin 512 → EReal) : EReal := Ideal.div (∑ k : Fin 512, centred row k * centred row k) rowLen

/-- One normalised entry: the centred entry times the reciprocal square root of the offset variance. -/
def normalised (row : Fin 512 → EReal) (h : Fin 512) : EReal := centred row h * Ideal.rsqrt (rowVar row + varEps)

/-- The result at coordinates (p, s, h). -/
def resultAt (x : (⟨3, ![128, 1024, 16]⟩ : Shape).Idx → EReal) (W b : (⟨2, ![16, 512]⟩ : Shape).Idx → EReal)
    (emb : (⟨2, ![1024, 512]⟩ : Shape).Idx → EReal) (gamma beta : (⟨1, ![512]⟩ : Shape).Idx → EReal)
    (p : Fin 128) (s : Fin 1024) (h : Fin 512) : EReal :=
  normalised (hidden x W b emb p s) h * gamma (ix1 h) + beta (ix1 h)

/-- The whole result array as one function of the six argument arrays. -/
def result (x : (⟨3, ![128, 1024, 16]⟩ : Shape).Idx → EReal) (W b : (⟨2, ![16, 512]⟩ : Shape).Idx → EReal)
    (emb : (⟨2, ![1024, 512]⟩ : Shape).Idx → EReal) (gamma beta : (⟨1, ![512]⟩ : Shape).Idx → EReal) :
    (⟨3, ![128, 1024, 512]⟩ : Shape).Idx → EReal :=
  fun i => resultAt x W b emb gamma beta (i 0) (i 1) (i 2)

theorem result_ix3 (x : (⟨3, ![128, 1024, 16]⟩ : Shape).Idx → EReal) (W b : (⟨2, ![16, 512]⟩ : Shape).Idx → EReal)
    (emb : (⟨2, ![1024, 512]⟩ : Shape).Idx → EReal) (gamma beta : (⟨1, ![512]⟩ : Shape).Idx → EReal)
    (p : Fin 128) (s : Fin 1024) (h : Fin 512) :
    result x W b emb gamma beta (ix3 p s h) = resultAt x W b emb gamma beta p s h := rfl

end Cert.LayerNormSpec

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.KernelPayload.lean ====
/-
  The kernel body's arithmetic, read at one entry of the block it stores.

  At a grid point the body holds one batch entry's rows x0[0,s,·], the projection W, the summed bias as a row, the
  embedding table, and the scale and shift as rows. It forms, for every position s and lane k,
      row_s k = (Σ_f x0[0,s,f] · W[f,k] + bias[0,k]) + emb[s,k]
  (the matrix product accumulates into zero, and rounding the operands to bf16 is the identity on the extended reals),
  then normalises each row: the lane sum of row_s over 512, the centred row, the lane sum of its squares over 512 plus
  the offset, the reciprocal square root, and finally the scale and shift of lane h. Every step is read at the entry
  (s, h): the pointwise operations entry by entry, a row kept as a column and broadcast back along the lanes by the
  column lemmas, a lane sum as a finite sum over the 512 lanes.
-/
import proofs.«174283_j27719718928452_1_alg».proof.Proof.Gen.KernelIdeal.Skeleton
import proofs.«174283_j27719718928452_1_alg».proof.Proof.LayerNormSpec
import proofs.«174283_j27719718928452_1_alg».proof.Proof.LibMergedAxes
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.LayerNormSpec Cert.LibMergedAxes

/-! ## The projection: a matrix product into zero, read at (s, h) -/

theorem lhs_row (i : S1024x512.Idx) (q : dot_S1024x16_S16x512_S1024x512_1_0_0_1_n_n.contr.Idx) :
    (dot_S1024x16_S16x512_S1024x512_1_0_0_1_n_n.lhsIdx i q 0).val = (i 0).val := by
  unfold DotDims.lhsIdx
  rw [dif_neg (show ¬(0 : Fin S1024x16.rank) ∈ dot_S1024x16_S16x512_S1024x512_1_0_0_1_n_n.lhsBatch by decide),
    dif_pos (show (0 : Fin S1024x16.rank) ∈ dot_S1024x16_S16x512_S1024x512_1_0_0_1_n_n.lhsNonContracting by decide)]
  rfl

theorem lhs_contracted (i : S1024x512.Idx) (q : dot_S1024x16_S16x512_S1024x512_1_0_0_1_n_n.contr.Idx) :
    (dot_S1024x16_S16x512_S1024x512_1_0_0_1_n_n.lhsIdx i q 1).val = (q ⟨0, by decide⟩).val :=
  dot_S1024x16_S16x512_S1024x512_1_0_0_1_n_n.lhsIdx_val_of_single rfl i q

theorem rhs_contracted (i : S1024x512.Idx) (q : dot_S1024x16_S16x512_S1024x512_1_0_0_1_n_n.contr.Idx) :
    (dot_S1024x16_S16x512_S1024x512_1_0_0_1_n_n.rhsIdx i q 0).val = (q ⟨0, by decide⟩).val :=
  dot_S1024x16_S16x512_S1024x512_1_0_0_1_n_n.rhsIdx_val_of_single rfl i q

theorem rhs_lane (i : S1024x512.Idx) (q : dot_S1024x16_S16x512_S1024x512_1_0_0_1_n_n.contr.Idx) :
    (dot_S1024x16_S16x512_S1024x512_1_0_0_1_n_n.rhsIdx i q 1).val = (i 1).val := by
  unfold DotDims.rhsIdx
  rw [dif_neg (show ¬(1 : Fin S16x512.rank) ∈ dot_S1024x16_S16x512_S1024x512_1_0_0_1_n_n.rhsBatch by decide),
    dif_pos (show (1 : Fin S16x512.rank) ∈ dot_S1024x16_S16x512_S1024x512_1_0_0_1_n_n.rhsNonContracting by decide)]
  rfl

/-- The product of the block's rows (its leading unit axis dropped) with W, accumulated into zero, at (s, h): the sum over
    the 16 features of x0[0,s,f] · W[f,h]. -/
theorem projection_apply (x0 : Vec Ideal S1x1024x16 .f32) (x1 : Vec Ideal S16x512 .f32) (s : Fin 1024) (h : Fin 512) :
    matmul (F := Ideal) dot_S1024x16_S16x512_S1024x512_1_0_0_1_n_n none
        (truncf .bf16 (shapeCast S1024x16 x0 shapeCasts_S1x1024x16_S1024x16 : FVec Ideal S1024x16 .f32) bitsLt_bf16_f32)
        (truncf .bf16 (x1 : FVec Ideal S16x512 .f32) bitsLt_bf16_f32) (constant S1024x512 .f32 0x00000000#32) (ix2 s h)
      = ∑ f : Fin 16, x0 (ix3 (0 : Fin 1) s f) * x1 (ix2 f h) := by
  refine (Ideal.matmul_constant_zero_apply dot_S1024x16_S16x512_S1024x512_1_0_0_1_n_n none _ _ (ix2 s h)).trans ?_
  rw [← Equiv.sum_comp (contrEquiv1 dot_S1024x16_S16x512_S1024x512_1_0_0_1_n_n 16 rfl rfl).symm]
  refine Finset.sum_congr rfl fun f _ => ?_
  have hk := contrEquiv1_symm_val dot_S1024x16_S16x512_S1024x512_1_0_0_1_n_n 16 rfl rfl f
  have el : dot_S1024x16_S16x512_S1024x512_1_0_0_1_n_n.lhsIdx (ix2 s h)
      ((contrEquiv1 dot_S1024x16_S16x512_S1024x512_1_0_0_1_n_n 16 rfl rfl).symm f) = ix2 s f :=
    funext fun a => Fin.ext (by
      match a with
      | ⟨0, _⟩ => exact lhs_row _ _
      | ⟨1, _⟩ => exact (lhs_contracted _ _).trans hk)
  have er : dot_S1024x16_S16x512_S1024x512_1_0_0_1_n_n.rhsIdx (ix2 s h)
      ((contrEquiv1 dot_S1024x16_S16x512_S1024x512_1_0_0_1_n_n 16 rfl rfl).symm f) = ix2 f h :=
    funext fun a => Fin.ext (by
      match a with
      | ⟨0, _⟩ => exact (rhs_contracted _ _).trans hk
      | ⟨1, _⟩ => exact rhs_lane _ _)
  rw [el, er]
  show shapeCast S1024x16 x0 shapeCasts_S1x1024x16_S1024x16 (ix2 s f) * x1 (ix2 f h) = _
  rw [shapeCast_1ab_ab_apply]

/-! ## The rows before normalisation -/

/-- The block's pre-normalisation array: projection plus the bias row plus the embedding. -/
def hiddenBlock (x0 : Vec Ideal S1x1024x16 .f32) (x1 : Vec Ideal S16x512 .f32) (x2 : Vec Ideal S1x512 .f32)
    (x3 : Vec Ideal S1024x512 .f32) : FVec Ideal S1024x512 .f32 :=
  addf (addf (matmul dot_S1024x16_S16x512_S1024x512_1_0_0_1_n_n none
        (truncf .bf16 (shapeCast S1024x16 x0 shapeCasts_S1x1024x16_S1024x16) bitsLt_bf16_f32)
        (truncf .bf16 x1 bitsLt_bf16_f32) (constant S1024x512 .f32 0x00000000#32))
      (broadcastTo S1024x512 (shapeCast S1x512 x2 shapeCasts_S1x512_S1x512) broadcasts_S1x512_S1024x512)) x3

theorem hiddenBlock_apply (x0 : Vec Ideal S1x1024x16 .f32) (x1 : Vec Ideal S16x512 .f32) (x2 : Vec Ideal S1x512 .f32)
    (x3 : Vec Ideal S1024x512 .f32) (s : Fin 1024) (k : Fin 512) :
    hiddenBlock x0 x1 x2 x3 (ix2 s k)
      = ((∑ f : Fin 16, x0 (ix3 (0 : Fin 1) s f) * x1 (ix2 f k)) + x2 (ix2 (0 : Fin 1) k)) + x3 (ix2 s k) := by
  unfold hiddenBlock
  rw [addf_apply, addf_apply, projection_apply, broadcastTo_1b_ab_apply, shapeCast_self]

/-! ## The normalisation of a block's rows -/

/-- A lane sum kept as a column: at (s, ·) the sum of row s over the 512 lanes. -/
theorem laneSum_apply (v : FVec Ideal S1024x512 .f32) (s : Fin 1024) (u : Fin 1) :
    shapeCast S1024x1 (multiReduction .add [1] S1024 v 0x00000000#32 reduces_S1024x512_S1024 (.inl rfl) rfl)
        shapeCasts_S1024_S1024x1 (ix2 s u) = ∑ k : Fin 512, v (ix2 s k) := by
  refine (shapeCast_a_a1_apply _ _ s u).trans ?_
  refine (Ideal.multiReduction_add_single v 0x00000000#32 reduces_S1024x512_S1024 (.inl rfl) rfl (ix1 s)).trans ?_
  show ∑ k : Fin 512, v (reduces_S1024x512_S1024.lift (ix1 s) k) = _
  refine Finset.sum_congr rfl fun k _ => congrArg v (funext fun a => Fin.ext ?_)
  match a with
  | ⟨0, _⟩ => rfl
  | ⟨1, _⟩ => rfl

/-- The column of row means. -/
def meanCol (v : FVec Ideal S1024x512 .f32) : FVec Ideal S1024x1 .f32 :=
  divf (shapeCast S1024x1 (multiReduction .add [1] S1024 v 0x00000000#32 reduces_S1024x512_S1024 (.inl rfl) rfl)
      shapeCasts_S1024_S1024x1) (broadcast S1024x1 (Scalar.ofBits .f32 0x44000000#32))

theorem meanCol_apply (v : FVec Ideal S1024x512 .f32) (s : Fin 1024) (u : Fin 1) :
    meanCol v (ix2 s u) = rowMean (fun k => v (ix2 s k)) := by
  unfold meanCol
  rw [divf_apply, laneSum_apply, broadcast_apply]
  rfl

/-- The block with each row's mean subtracted. -/
def centredBlock (v : FVec Ideal S1024x512 .f32) : FVec Ideal S1024x512 .f32 :=
  subf v (broadcastTo S1024x512 (meanCol v) broadcasts_S1024x1_S1024x512)

theorem centredBlock_apply (v : FVec Ideal S1024x512 .f32) (s : Fin 1024) (h : Fin 512) :
    centredBlock v (ix2 s h) = centred (fun k => v (ix2 s k)) h := by
  unfold centredBlock
  rw [subf_apply, broadcastTo_a1_ab_apply, meanCol_apply]
  rfl

/-- A reciprocal square root is taken entry by entry. -/
theorem rsqrt_apply {s : Shape} {φ : FTy} (a : FVec Ideal s φ) (i : s.Idx) : rsqrt a i = Ideal.rsqrt (a i) := rfl

/-- The column of reciprocal standard deviations. -/
def rstdCol (v : FVec Ideal S1024x512 .f32) : FVec Ideal S1024x1 .f32 :=
  rsqrt (addf (divf (shapeCast S1024x1 (multiReduction .add [1] S1024 (mulf (centredBlock v) (centredBlock v)) 0x00000000#32
        reduces_S1024x512_S1024 (.inl rfl) rfl) shapeCasts_S1024_S1024x1)
      (broadcast S1024x1 (Scalar.ofBits .f32 0x44000000#32))) (broadcast S1024x1 (Scalar.ofBits .f32 0x3727C5AC#32)))

theorem rstdCol_apply (v : FVec Ideal S1024x512 .f32) (s : Fin 1024) (u : Fin 1) :
    rstdCol v (ix2 s u) = Ideal.rsqrt (rowVar (fun k => v (ix2 s k)) + varEps) := by
  unfold rstdCol
  rw [rsqrt_apply, addf_apply, divf_apply, laneSum_apply, broadcast_apply, broadcast_apply]
  refine congrArg Ideal.rsqrt (congrArg (· + _) (congrArg (Ideal.div · _) ?_))
  refine Finset.sum_congr rfl fun k _ => ?_
  rw [mulf_apply, centredBlock_apply]

/-- The normalised block, scaled and shifted lane by lane. -/
def normalisedBlock (v : FVec Ideal S1024x512 .f32) (g be : Vec Ideal S1x512 .f32) : FVec Ideal S1024x512 .f32 :=
  addf (mulf (mulf (centredBlock v) (broadcastTo S1024x512 (rstdCol v) broadcasts_S1024x1_S1024x512))
      (broadcastTo S1024x512 (shapeCast S1x512 g shapeCasts_S1x512_S1x512) broadcasts_S1x512_S1024x512))
    (broadcastTo S1024x512 (shapeCast S1x512 be shapeCasts_S1x512_S1x512) broadcasts_S1x512_S1024x512)

theorem normalisedBlock_apply (v : FVec Ideal S1024x512 .f32) (g be : Vec Ideal S1x512 .f32) (s : Fin 1024) (h : Fin 512) :
    normalisedBlock v g be (ix2 s h)
      = normalised (fun k => v (ix2 s k)) h * g (ix2 (0 : Fin 1) h) + be (ix2 (0 : Fin 1) h) := by
  unfold normalisedBlock
  rw [addf_apply, mulf_apply, mulf_apply, centredBlock_apply, broadcastTo_a1_ab_apply, rstdCol_apply,
    broadcastTo_1b_ab_apply, broadcastTo_1b_ab_apply, shapeCast_self, shapeCast_self]
  rfl

/-! ## The body's stored value -/

/-- The body's value is the normalisation of its pre-normalisation array. -/
theorem pay2_eq (x0 : Vec Ideal S1x1024x16 .f32) (x1 : Vec Ideal S16x512 .f32) (x2 : Vec Ideal S1x512 .f32)
    (x3 : Vec Ideal S1024x512 .f32) (x4 x5 : Vec Ideal S1x512 .f32) :
    k0_pay2 x0 x1 x2 x3 x4 x5 = normalisedBlock (hiddenBlock x0 x1 x2 x3) x4 x5 := rfl

/-- The row of the block at position s before normalisation. -/
def blockRow (x0 : Vec Ideal S1x1024x16 .f32) (x1 : Vec Ideal S16x512 .f32) (x2 : Vec Ideal S1x512 .f32)
    (x3 : Vec Ideal S1024x512 .f32) (s : Fin 1024) (k : Fin 512) : EReal :=
  ((∑ f : Fin 16, x0 (ix3 (0 : Fin 1) s f) * x1 (ix2 f k)) + x2 (ix2 (0 : Fin 1) k)) + x3 (ix2 s k)

/-- The body's stored value at (s, h): row s normalised, lane h scaled and shifted. -/
theorem pay2_apply (x0 : Vec Ideal S1x1024x16 .f32) (x1 : Vec Ideal S16x512 .f32) (x2 : Vec Ideal S1x512 .f32)
    (x3 : Vec Ideal S1024x512 .f32) (x4 x5 : Vec Ideal S1x512 .f32) (s : Fin 1024) (h : Fin 512) :
    k0_pay2 x0 x1 x2 x3 x4 x5 (ix2 s h)
      = normalised (blockRow x0 x1 x2 x3 s) h * x4 (ix2 (0 : Fin 1) h) + x5 (ix2 (0 : Fin 1) h) := by
  rw [pay2_eq, normalisedBlock_apply]
  have e : (fun k => hiddenBlock x0 x1 x2 x3 (ix2 s k)) = blockRow x0 x1 x2 x3 s :=
    funext fun k => hiddenBlock_apply x0 x1 x2 x3 s k
  rw [e]

end Cert.KernelIdeal.Payload

end
-- ==== Proof.KernelBlocks.lean ====
/-
  From the kernel's blocks to its whole result array.

  The grid has 128 points, one per batch entry. At point t the body sees rows x[t,·,·] (a [1,1024,16] block of x), and
  the whole of W, of the summed-bias row, of the embedding table and of the scale and shift rows; it writes back the
  [1,1024,512] block t of the result. The summed-bias row and the two [1,512] rows are made on the host before the
  launch: the bias is Σ_f b[f,·] kept as one row, the scale and shift are γ and β with a unit axis in front.
  So what point t writes back is block t of the specification's array, the 128 blocks tile the result, and the result
  array after the run is the specification's function of the six arguments.
-/
import proofs.«174283_j27719718928452_1_alg».proof.Proof.Gen.KernelIdeal.Value
import proofs.«174283_j27719718928452_1_alg».proof.Proof.KernelPayload
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.LayerNormSpec Cert.KernelIdeal.Payload
open Idealize.ShloMosaic.Pipeline (Dat)

variable (m : (ℓ : Loc nD τ sig) → Buf (Elt Ideal) ℓ) (ρ : Dev nD → PrngReg)

/-! ## The rows the host prepares before the launch -/

/-- The summed-bias row as the region finds it: the sum of b over its 16 rows, kept as one row. -/
theorem V_biasRow (c : Dev nD) :
    (V m c main_v1 : S1x512.Idx → EReal)
      = broadcastInDim S1x512 ![1] bcast_S512_S1x512_1
          (Host.reduceAdd (F := Ideal) (m ((c : Thread nD τ).loc main_arg2)) (constant (F := Ideal) S_ .f32 0x00000000#32)
            reducesTo_S16x512_S512_d0 h_S_) := by
  dsimp only [Gen.V, Gen.hostOps0]
  after_results

/-- The scale row as the region finds it: γ with a unit axis in front. -/
theorem V_scaleRow (c : Dev nD) :
    (V m c main_v2 : S1x512.Idx → EReal) = shapeCast S1x512 (m ((c : Thread nD τ).loc main_arg4)) shapeCasts_S512_S1x512 := by
  dsimp only [Gen.V, Gen.hostOps0]
  after_results
  rfl

/-- The shift row as the region finds it: β with a unit axis in front. -/
theorem V_shiftRow (c : Dev nD) :
    (V m c main_v3 : S1x512.Idx → EReal) = shapeCast S1x512 (m ((c : Thread nD τ).loc main_arg5)) shapeCasts_S512_S1x512 := by
  dsimp only [Gen.V, Gen.hostOps0]
  after_results
  rfl

/-- The summed-bias row at lane k: the sum of b[f,k] over the 16 rows. -/
theorem biasRow_apply (b : FVec Ideal S16x512 .f32) (u : Fin 1) (k : Fin 512) :
    broadcastInDim S1x512 ![1] bcast_S512_S1x512_1
        (Host.reduceAdd (F := Ideal) b (constant (F := Ideal) S_ .f32 0x00000000#32) reducesTo_S16x512_S512_d0 h_S_) (ix2 u k)
      = ∑ f : Fin 16, b (ix2 f k) := by
  refine (broadcastInDim_apply _ _ _ (ix2 u k) (ix1 k) (fun a => by
    match a with
    | ⟨0, _⟩ => rfl)).trans ?_
  simp only [Host.reduceAdd, Ideal.hostReduceAdd_def]
  rw [Ideal.hostReduceAdd_single reducesTo_S16x512_S512_d0 (by decide)]
  show Ideal.ofBits .f32 0x00000000#32 + _ = _
  rw [Ideal.ofBits_zero_f32, zero_add]
  refine Finset.sum_congr rfl fun f _ => ?_
  exact congrArg b (funext fun a => Fin.ext (by match a with | ⟨0, _⟩ => rfl | ⟨1, _⟩ => rfl))

/-- A vector with a unit axis put in front reads lane k at (·, k). -/
theorem unitRow_apply (g : FVec Ideal S512 .f32) (u : Fin 1) (k : Fin 512) :
    shapeCast S1x512 g shapeCasts_S512_S1x512 (ix2 u k) = g (ix1 k) :=
  shapeCast_a_1a_apply g shapeCasts_S512_S1x512 u k

/-! ## The index maps over the grid -/

/-- The batch window and the result window sit at block t along the batch axis and at block 0 elsewhere; every other
    window is its whole array. Decided over the 128 points. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- A grid point as a batch coordinate. -/
def batchOf (t : Fin cfg0.N) : Fin 128 := ⟨t.val, lt_of_lt_of_eq t.isLt Gen.N_0⟩

/-! ## The blocks the body reads, entry by entry -/

/-- The batch window's block at point t holds the rows of batch entry t. -/
theorem xBlock_apply (c : Dev nD) (t : Fin cfg0.N) (u : Fin 1) (s : Fin 1024) (f : Fin 16) :
    iblk m c 0 t (ix3 u s f) = m ((c : Thread nD τ).loc main_arg0) (ix3 (batchOf t) s f) := by
  obtain ⟨e0, e1, e2, -⟩ := index_facts t
  show V m c main_arg0 (((cfg0.win 0).blk t).view.emb (ix3 u s f)) = _
  rw [V_main_arg0]
  refine congrArg _ (funext fun a => Fin.ext ?_)
  have hu : u.val = 0 := by omega
  match a with
  | ⟨0, _⟩ => show win0_0.index t (0 : Fin 3) * 1 + 1 * u.val = t.val; omega
  | ⟨1, _⟩ => show win0_0.index t (1 : Fin 3) * 1024 + 1 * s.val = s.val; omega
  | ⟨2, _⟩ => show win0_0.index t (2 : Fin 3) * 16 + 1 * f.val = f.val; omega

/-- The projection window's block is the whole of W. -/
theorem wBlock_apply (c : Dev nD) (t : Fin cfg0.N) (f : Fin 16) (k : Fin 512) :
    iblk m c 1 t (ix2 f k) = m ((c : Thread nD τ).loc main_arg1) (ix2 f k) := by
  obtain ⟨-, -, -, e0, e1, -⟩ := index_facts t
  show V m c main_arg1 (((cfg0.win 1).blk t).view.emb (ix2 f k)) = _
  rw [V_main_arg1]
  refine congrArg _ (funext fun a => Fin.ext ?_)
  match a with
  | ⟨0, _⟩ => show win0_1.index t (0 : Fin 2) * 16 + 1 * f.val = f.val; omega
  | ⟨1, _⟩ => show win0_1.index t (1 : Fin 2) * 512 + 1 * k.val = k.val; omega

/-- The bias argument's launch contents, as an array of extended reals. -/
abbrev biasArg (c : Dev nD) : S16x512.Idx → EReal := m ((c : Thread nD τ).loc main_arg2)

/-- The bias window's block is the summed-bias row: at lane k the sum of b[f,k] over the 16 rows. -/
theorem biasBlock_apply (c : Dev nD) (t : Fin cfg0.N) (u : Fin 1) (k : Fin 512) :
    iblk m c 2 t (ix2 u k) = ∑ f : Fin 16, biasArg m c (ix2 f k) := by
  obtain ⟨-, -, -, -, -, e0, e1, -⟩ := index_facts t
  have hu : u.val = 0 := by omega
  have e : ((cfg0.win 2).blk t).view.emb (ix2 u k) = ix2 u k := funext fun a => Fin.ext (by
    match a with
    | ⟨0, _⟩ => show win0_2.index t (0 : Fin 2) * 1 + 1 * u.val = u.val; omega
    | ⟨1, _⟩ => show win0_2.index t (1 : Fin 2) * 512 + 1 * k.val = k.val; omega)
  show (V m c main_v1 : S1x512.Idx → EReal) (((cfg0.win 2).blk t).view.emb (ix2 u k)) = _
  rw [e, V_biasRow]
  exact biasRow_apply _ u k

/-- The embedding window's block is the whole embedding table. -/
theorem embBlock_apply (c : Dev nD) (t : Fin cfg0.N) (s : Fin 1024) (k : Fin 512) :
    iblk m c 3 t (ix2 s k) = m ((c : Thread nD τ).loc main_arg3) (ix2 s k) := by
  obtain ⟨-, -, -, -, -, -, -, e0, e1, -⟩ := index_facts t
  show V m c main_arg3 (((cfg0.win 3).blk t).view.emb (ix2 s k)) = _
  rw [V_main_arg3]
  refine congrArg _ (funext fun a => Fin.ext ?_)
  match a with
  | ⟨0, _⟩ => show win0_3.index t (0 : Fin 2) * 1024 + 1 * s.val = s.val; omega
  | ⟨1, _⟩ => show win0_3.index t (1 : Fin 2) * 512 + 1 * k.val = k.val; omega

/-- The scale window's block is γ as a row. -/
theorem scaleBlock_apply (c : Dev nD) (t : Fin cfg0.N) (u : Fin 1) (k : Fin 512) :
    iblk m c 4 t (ix2 u k) = m ((c : Thread nD τ).loc main_arg4) (ix1 k) := by
  obtain ⟨-, -, -, -, -, -, -, -, -, e0, e1, -⟩ := index_facts t
  have hu : u.val = 0 := by omega
  have e : ((cfg0.win 4).blk t).view.emb (ix2 u k) = ix2 u k := funext fun a => Fin.ext (by
    match a with
    | ⟨0, _⟩ => show win0_4.index t (0 : Fin 2) * 1 + 1 * u.val = u.val; omega
    | ⟨1, _⟩ => show win0_4.index t (1 : Fin 2) * 512 + 1 * k.val = k.val; omega)
  show (V m c main_v2 : S1x512.Idx → EReal) (((cfg0.win 4).blk t).view.emb (ix2 u k)) = _
  rw [e, V_scaleRow]
  exact unitRow_apply _ u k

/-- The shift window's block is β as a row. -/
theorem shiftBlock_apply (c : Dev nD) (t : Fin cfg0.N) (u : Fin 1) (k : Fin 512) :
    iblk m c 5 t (ix2 u k) = m ((c : Thread nD τ).loc main_arg5) (ix1 k) := by
  obtain ⟨-, -, -, -, -, -, -, -, -, -, -, e0, e1, -⟩ := index_facts t
  have hu : u.val = 0 := by omega
  have e : ((cfg0.win 5).blk t).view.emb (ix2 u k) = ix2 u k := funext fun a => Fin.ext (by
    match a with
    | ⟨0, _⟩ => show win0_5.index t (0 : Fin 2) * 1 + 1 * u.val = u.val; omega
    | ⟨1, _⟩ => show win0_5.index t (1 : Fin 2) * 512 + 1 * k.val = k.val; omega)
  show (V m c main_v3 : S1x512.Idx → EReal) (((cfg0.win 5).blk t).view.emb (ix2 u k)) = _
  rw [e, V_shiftRow]
  exact unitRow_apply _ u k

/-! ## What the body leaves in the result window's buffer -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The buffer after the body, at (·, s, h), for any contents of the six input buffers: row s of the pre-normalisation
    block normalised, lane h scaled and shifted. -/
theorem store_apply (x0 : Vec Ideal S1x1024x16 .f32) (x1 : Vec Ideal S16x512 .f32) (x2 : Vec Ideal S1x512 .f32)
    (x3 : Vec Ideal S1024x512 .f32) (x4 x5 : Vec Ideal S1x512 .f32) (u : Fin 1) (s : Fin 1024) (h : Fin 512) :
    out0_6 x0 x1 x2 x3 x4 x5 (ix3 u s h)
      = normalised (blockRow x0 x1 x2 x3 s) h * x4 (ix2 (0 : Fin 1) h) + x5 (ix2 (0 : Fin 1) h) := by
  unfold out0_6
  rw [Value.canon6_eq]
  show k0_pay2 (View.ld x0 r0_0) (View.ld x1 r0_1) (View.ld x2 r0_2) (View.ld x3 r0_3) (View.ld x4 r0_2) (View.ld x5 r0_2)
      (Value.ix6_0 (ix3 u s h)) = _
  simp only [View.ld_unit_zero (S := S1x1024x16) zeros3, View.ld_unit_zero (S := S16x512) zeros2,
    View.ld_unit_zero (S := S1x512) zeros2, View.ld_unit_zero (S := S1024x512) zeros2]
  have e : Value.ix6_0 (ix3 u s h) = ix2 s h := funext fun a => Fin.ext (by
    match a with
    | ⟨0, _⟩ => rfl
    | ⟨1, _⟩ => rfl)
  rw [e, pay2_apply]

/-! ## Block t of the specification is what point t writes back -/

/-- The specification's array of the launch contents of the six arguments. -/
def resultArr (c : Dev nD) : S128x1024x512.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Row s of the block at point t, before normalisation, is row (t, s) of the specification's pre-normalisation array. -/
theorem blockRow_eq (c : Dev nD) (t : Fin cfg0.N) (s : Fin 1024) :
    blockRow (iblk m c 0 t) (iblk m c 1 t) (iblk m c 2 t) (iblk m c 3 t) s
      = LayerNormSpec.hidden (m ((c : Thread nD τ).loc main_arg0)) (m ((c : Thread nD τ).loc main_arg1)) (m ((c : Thread nD τ).loc main_arg2))
          (m ((c : Thread nD τ).loc main_arg3)) (batchOf t) s := by
  funext k
  unfold blockRow LayerNormSpec.hidden
  rw [biasBlock_apply, embBlock_apply]
  refine congrArg (· + _) (congrArg (· + _) (Finset.sum_congr rfl fun f _ => ?_))
  rw [xBlock_apply, wBlock_apply]

/-- What point t writes back is block t of the specification's array. -/
theorem flushed_eq (c : Dev nD) (t : Fin cfg0.N) :
    (dats m 0 c).flushed 6 t = ((cfg0.win 6).blk t).view.read (Elt Ideal) (resultArr m c) := by
  rw [Value.flushed6]
  funext j
  obtain ⟨u, s, h, rfl⟩ : ∃ (u : Fin 1) (s : Fin 1024) (h : Fin 512), (j : S1x1024x512.Idx) = ix3 u s h :=
    ⟨j 0, j 1, j 2, eq_ix3 j⟩
  show out0_6 (iblk m c 0 t) (iblk m c 1 t) (iblk m c 2 t) (iblk m c 3 t) (iblk m c 4 t) (iblk m c 5 t) (ix3 u s h)
      = resultArr m c (((cfg0.win 6).blk t).view.emb (ix3 u s h))
  refine (store_apply (iblk m c 0 t) (iblk m c 1 t) (iblk m c 2 t) (iblk m c 3 t) (iblk m c 4 t) (iblk m c 5 t) u s h).trans ?_
  obtain ⟨-, -, -, -, -, -, -, -, -, -, -, -, -, e0, e1, e2⟩ := index_facts t
  have hu : u.val = 0 := by omega
  have eo : ((cfg0.win 6).blk t).view.emb (ix3 u s h) = ix3 (batchOf t) s h := funext fun a => Fin.ext (by
    match a with
    | ⟨0, _⟩ => show win0_6.index t (0 : Fin 3) * 1 + 1 * u.val = t.val; omega
    | ⟨1, _⟩ => show win0_6.index t (1 : Fin 3) * 1024 + 1 * s.val = s.val; omega
    | ⟨2, _⟩ => show win0_6.index t (2 : Fin 3) * 512 + 1 * h.val = h.val; omega)
  rw [eo, blockRow_eq, scaleBlock_apply, shiftBlock_apply]
  rfl

/-! ## The blocks tile the result -/

/-- An index of the result is in point t's block iff each coordinate is in the block's range on its axis. -/
theorem mem_block (t : Fin cfg0.N) (i : S128x1024x512.Idx) :
    i ∈ ((cfg0.win 6).blk t).view.set ↔ ∀ a : Fin 3, win0_6.index t a * S1x1024x512.size a ≤ (i a).val
      ∧ (i a).val < win0_6.index t a * S1x1024x512.size a + S1x1024x512.size a := by
  show i ∈ ((View.whole main_v4).slice (win0_6.rect t)).set ↔ _
  rw [View.set_slice_whole, Rect.mem_set_unit]
  exact Iff.rfl

/-- Every index of the result lies in the block of the point named by its batch coordinate. -/
theorem covered (i : S128x1024x512.Idx) :
    ∃ t : Fin cfg0.N, (cfg0.win 6).flush t = true ∧ i ∈ ((cfg0.win 6).blk t).view.set := by
  have h0 : (i 0).val < 128 := (i 0).isLt
  have h1 : (i 1).val < 1024 := (i 1).isLt
  have h2 : (i 2).val < 512 := (i 2).isLt
  obtain ⟨t, ht⟩ : ∃ t : Fin cfg0.N, t.val = (i 0).val := ⟨⟨(i 0).val, lt_of_lt_of_eq h0 Gen.N_0.symm⟩, rfl⟩
  obtain ⟨-, -, -, -, -, -, -, -, -, -, -, -, -, e0, e1, e2⟩ := index_facts t
  refine ⟨t, flush0_6 t, ?_⟩
  rw [mem_block]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 512 ≤ (i 2).val ∧ (i 2).val < win0_6.index t (2 : Fin 3) * 512 + 512; omega

/-! ## The result array after the run -/

/-- After the 128 write-backs the result array is the specification's array. -/
theorem final (c : Dev nD) : (dats m 0 c).arrAt 6 cfg0.N = resultArr m c :=
  (dats m 0 c).arrAt_eq_of_cover 6 (resultArr m c) (fun t _ => flushed_eq m c t) covered

/-- The kernel's run: every weakly fair execution terminates with the result array at the specification's function of the
    six arguments, and the arguments unchanged. -/
theorem run : θ_run defs (onTc (τ := τ) (main (F := Ideal))) ⟨m, fun _ => 0, ρ⟩ fun r => ∀ c : Dev nD,
      r.2.mem ((c : Thread nD τ).loc main_v4) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.ReferenceRun.lean ====
/-
  The reference program's run, read back as one pure term of its six arguments.

  The reference is a straight line of host operations: the projection x·W, the bias summed over its first axis and
  broadcast, the position embedding broadcast over the batch; then the layer normalisation of each row of 512 lanes —
  the row mean (sum / 512), the variance through the outlined variance function (its own mean, the centred row, the
  squares, their sum, divided by 512 − 0, kept where 512 − 0 > 0 and a quiet-NaN word otherwise), and
  ((h − mean) · rsqrt(var + ε)) · γ + β. The two outlined functions are unfolded at their calls: the program is the
  list `ops` of fifty-three operations in order, and every execution ends with the result buffer at the operations'
  composed term `refTerm` of the arguments' launch contents, the arguments unchanged. Nothing here depends on what the
  float operations compute: the statement is for any float values `F`.
-/
import proofs.«174283_j27719718928452_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The array a row is normalised from: x·W (contracting the 16 features), plus the bias summed over its first axis
    and broadcast along batch and position, plus the embedding broadcast along the batch. -/
def hiddenTerm (x : FVec F S128x1024x16 .f32) (W b : FVec F S16x512 .f32) (emb : FVec F S1024x512 .f32) :
    FVec F S128x1024x512 .f32 :=
  addf
    (addf (Host.dotGeneral dot_S128x1024x16_S16x512_S128x1024x512_2_0_01_1_n_n none x W)
      (broadcastInDim S128x1024x512 ![0, 1, 2] bcast_S1x1x512_S128x1024x512_0_1_2 (broadcastInDim S1x1x512 ![2] bcast_S512_S1x1x512_2 (Host.reduceAdd b (constant S_ .f32 0x00000000#32) reducesTo_S16x512_S512_d0 h_S_))))
    (broadcastInDim S128x1024x512 ![0, 1, 2] bcast_S1x1024x512_S128x1024x512_0_1_2
      (broadcastInDim S1x1024x512 ![1, 2] bcast_S1024x512_S1x1024x512_1_2 emb))

/-- The row means, one per (batch, position), as a column: the row sum divided by the word 512.0. -/
def meanTerm (h : FVec F S128x1024x512 .f32) : FVec F S128x1024x1 .f32 :=
  Host.divf
    (broadcastInDim S128x1024x1 ![0, 1] bcast_S128x1024_S128x1024x1_0_1
      (Host.reduceAdd h (constant S_ .f32 0x00000000#32) reducesTo_S128x1024x512_S128x1024_d2 h_S_))
    (broadcastInDim S128x1024x1 ![] bcast_S_S128x1024x1 (constant S_ .f32 0x44000000#32))

/-- The centred array: each entry minus its row's mean. -/
def centredTerm (h : FVec F S128x1024x512 .f32) : FVec F S128x1024x512 .f32 :=
  subf h (broadcastInDim S128x1024x512 ![0, 1, 2] bcast_S128x1024x1_S128x1024x512_0_1_2 (meanTerm h))

/-- The divisor of the variance: the word 512.0 minus the integer 0 converted to a float. -/
def countTerm : FVec F S_ .f32 :=
  subf (constant S_ .f32 0x44000000#32) (sitofp .f32 (constantI S_ 32 0#32))

/-- The row variances as a column: the sum of the squared centred entries over the divisor, kept where the divisor
    is positive, the quiet-NaN word elsewhere. -/
def varTerm (h : FVec F S128x1024x512 .f32) : FVec F S128x1024x1 .f32 :=
  select (broadcastInDim S128x1024x1 ![] bcast_S_S128x1024x1 (cmpf .ogt (countTerm (F := F)) (constant S_ .f32 0x00000000#32)))
    (Host.divf
      (broadcastInDim S128x1024x1 ![0, 1] bcast_S128x1024_S128x1024x1_0_1
        (Host.reduceAdd (mulf (centredTerm h) (centredTerm h)) (constant S_ .f32 0x00000000#32)
          reducesTo_S128x1024x512_S128x1024_d2 h_S_))
      (broadcastInDim S128x1024x1 ![] bcast_S_S128x1024x1 (countTerm (F := F))))
    (broadcastInDim S128x1024x1 ![] bcast_S_S128x1024x1 (constant S_ .f32 0x7FC00000#32))

/-- The normalisation of an array along its last axis, scaled and shifted lane by lane. -/
def normTerm (h : FVec F S128x1024x512 .f32) (gamma beta : FVec F S512 .f32) : FVec F S128x1024x512 .f32 :=
  addf
    (mulf
      (mulf (centredTerm h)
        (broadcastInDim S128x1024x512 ![0, 1, 2] bcast_S128x1024x1_S128x1024x512_0_1_2 (Host.rsqrt (addf (varTerm h) (broadcastInDim S128x1024x1 ![] bcast_S_S128x1024x1 (constant S_ .f32 0x3727C5AC#32))))))
      (broadcastInDim S128x1024x512 ![0, 1, 2] bcast_S1x1x512_S128x1024x512_0_1_2 (broadcastInDim S1x1x512 ![2] bcast_S512_S1x1x512_2 gamma)))
    (broadcastInDim S128x1024x512 ![0, 1, 2] bcast_S1x1x512_S128x1024x512_0_1_2 (broadcastInDim S1x1x512 ![2] bcast_S512_S1x1x512_2 beta))

/-- What the reference computes from its six arguments' contents. -/
def refTerm (x : FVec F S128x1024x16 .f32) (W b : FVec F S16x512 .f32) (emb : FVec F S1024x512 .f32)
    (gamma beta : FVec F S512 .f32) : FVec F S128x1024x512 .f32 :=
  normTerm (hiddenTerm x W b emb) gamma beta

/-! ## The program as a list of operations -/

/-- The fifty-three operations in order: sixteen of the main function, the variance function's twenty over its call's
    buffers (its arguments the pre-normalisation array and the integer 0), the guard function's three over its call's
    buffers, then the main function's last fourteen. -/
abbrev ops : List (HloOp τ sig (Elt F)) :=
  [ StableHlo.binary main_arg0 main_arg1 main_v0 ((fun l r => Host.dotGeneral dot_S128x1024x16_S16x512_S128x1024x512_2_0_01_1_n_n none l r) : (⟨S128x1024x16, .f32⟩ : BufTy).Contents (Elt F) → (⟨S16x512, .f32⟩ : BufTy).Contents (Elt F) → (⟨S128x1024x512, .f32⟩ : BufTy).Contents (Elt F)),
    StableHlo.nullary main_cst (constant S_ .f32 0x00000000#32),
    StableHlo.binary main_arg2 main_cst main_v1 ((fun x v => Host.reduceAdd x v reducesTo_S16x512_S512_d0 h_S_) : (⟨S16x512, .f32⟩ : BufTy).Contents (Elt F) → (⟨S_, .f32⟩ : BufTy).Contents (Elt F) → (⟨S512, .f32⟩ : BufTy).Contents (Elt F)),
    StableHlo.unary main_v1 main_v2 (broadcastInDim S1x1x512 ![2] bcast_S512_S1x1x512_2 : (⟨S512, .f32⟩ : BufTy).Contents (Elt F) → (⟨S1x1x512, .f32⟩ : BufTy).Contents (Elt F)),
    StableHlo.unary main_v2 main_v3 (broadcastInDim S128x1024x512 ![0, 1, 2] bcast_S1x1x512_S128x1024x512_0_1_2 : (⟨S1x1x512, .f32⟩ : BufTy).Contents (Elt F) → (⟨S128x1024x512, .f32⟩ : BufTy).Contents (Elt F)),
    StableHlo.binary main_v0 main_v3 main_v4 (addf : (⟨S128x1024x512, .f32⟩ : BufTy).Contents (Elt F) → (⟨S128x1024x512, .f32⟩ : BufTy).Contents (Elt F) → (⟨S128x1024x512, .f32⟩ : BufTy).Contents (Elt F)),
    StableHlo.unary main_arg3 main_v5 (broadcastInDim S1x1024x512 ![1, 2] bcast_S1024x512_S1x1024x512_1_2 : (⟨S1024x512, .f32⟩ : BufTy).Contents (Elt F) → (⟨S1x1024x512, .f32⟩ : BufTy).Contents (Elt F)),
    StableHlo.unary main_v5 main_v6 (broadcastInDim S128x1024x512 ![0, 1, 2] bcast_S1x1024x512_S128x1024x512_0_1_2 : (⟨S1x1024x512, .f32⟩ : BufTy).Contents (Elt F) → (⟨S128x1024x512, .f32⟩ : BufTy).Contents (Elt F)),
    StableHlo.binary main_v4 main_v6 main_v7 (addf : (⟨S128x1024x512, .f32⟩ : BufTy).Contents (Elt F) → (⟨S128x1024x512, .f32⟩ : BufTy).Contents (Elt F) → (⟨S128x1024x512, .f32⟩ : BufTy).Contents (Elt F)),
    StableHlo.nullary main_cst_0 (constant S_ .f32 0x00000000#32),
    StableHlo.binary main_v7 main_cst_0 main_v8 ((fun x v => Host.reduceAdd x v reducesTo_S128x1024x512_S128x1024_d2 h_S_) : (⟨S128x1024x512, .f32⟩ : BufTy).Contents (Elt F) → (⟨S_, .f32⟩ : BufTy).Contents (Elt F) → (⟨S128x1024, .f32⟩ : BufTy).Contents (Elt F)),
    StableHlo.unary main_v8 main_v9 (broadcastInDim S128x1024x1 ![0, 1] bcast_S128x1024_S128x1024x1_0_1 : (⟨S128x1024, .f32⟩ : BufTy).Contents (Elt F) → (⟨S128x1024x1, .f32⟩ : BufTy).Contents (Elt F)),
    StableHlo.nullary main_cst_1 (constant S_ .f32 0x44000000#32),
    StableHlo.unary main_cst_1 main_v10 (broadcastInDim S128x1024x1 ![] bcast_S_S128x1024x1 : (⟨S_, .f32⟩ : BufTy).Contents (Elt F) → (⟨S128x1024x1, .f32⟩ : BufTy).Contents (Elt F)),
    StableHlo.binary main_v9 main_v10 main_v11 (Host.divf : (⟨S128x1024x1, .f32⟩ : BufTy).Contents (Elt F) → (⟨S128x1024x1, .f32⟩ : BufTy).Contents (Elt F) → (⟨S128x1024x1, .f32⟩ : BufTy).Contents (Elt F)),
    StableHlo.nullary main_c (constantI S_ 32 0#32),
    StableHlo.TRef.nullary main_call0.cst (constant S_ .f32 0x00000000#32),
    StableHlo.TRef.binary (.of main_v7 : TRef sig ⟨S128x1024x512, .f32⟩) main_call0.cst main_call0.v0 (fun x v => Host.reduceAdd x v reducesTo_S128x1024x512_S128x1024_d2 h_S_),
    StableHlo.TRef.unary main_call0.v0 main_call0.v1 (broadcastInDim S128x1024x1 ![0, 1] bcast_S128x1024_S128x1024x1_0_1),
    StableHlo.TRef.nullary main_call0.cst_0 (constant S_ .f32 0x44000000#32),
    StableHlo.TRef.unary main_call0.cst_0 main_call0.v2 (broadcastInDim S128x1024x1 ![] bcast_S_S128x1024x1),
    StableHlo.TRef.binary main_call0.v1 main_call0.v2 main_call0.v3 Host.divf,
    StableHlo.TRef.unary main_call0.v3 main_call0.v4 (broadcastInDim S128x1024x512 ![0, 1, 2] bcast_S128x1024x1_S128x1024x512_0_1_2),
    StableHlo.TRef.binary (.of main_v7 : TRef sig ⟨S128x1024x512, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x44000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S128x1024x512_S128x1024_d2 h_S_),
    StableHlo.TRef.unary main_call0.v9 main_call0.v10 (broadcastInDim S128x1024x1 ![0, 1] bcast_S128x1024_S128x1024x1_0_1),
    StableHlo.TRef.unary main_call0.v8 main_call0.v11 (broadcastInDim S128x1024x1 ![] bcast_S_S128x1024x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128x1024x1 ![] bcast_S_S128x1024x1),
    StableHlo.TRef.ternary main_call0.v13 main_call0.v12 main_call0.call0.v1 main_call0.call0.v2 (fun p a b => select (broadcastInDim S128x1024x1 ![] bcast_S_S128x1024x1 p) a b),
    StableHlo.unary main_v11 main_v13 (broadcastInDim S128x1024x512 ![0, 1, 2] bcast_S128x1024x1_S128x1024x512_0_1_2 : (⟨S128x1024x1, .f32⟩ : BufTy).Contents (Elt F) → (⟨S128x1024x512, .f32⟩ : BufTy).Contents (Elt F)),
    StableHlo.binary main_v7 main_v13 main_v14 (subf : (⟨S128x1024x512, .f32⟩ : BufTy).Contents (Elt F) → (⟨S128x1024x512, .f32⟩ : BufTy).Contents (Elt F) → (⟨S128x1024x512, .f32⟩ : BufTy).Contents (Elt F)),
    StableHlo.nullary main_cst_2 (constant S_ .f32 0x3727C5AC#32),
    StableHlo.unary main_cst_2 main_v15 (broadcastInDim S128x1024x1 ![] bcast_S_S128x1024x1 : (⟨S_, .f32⟩ : BufTy).Contents (Elt F) → (⟨S128x1024x1, .f32⟩ : BufTy).Contents (Elt F)),
    StableHlo.binary main_v12 main_v15 main_v16 (addf : (⟨S128x1024x1, .f32⟩ : BufTy).Contents (Elt F) → (⟨S128x1024x1, .f32⟩ : BufTy).Contents (Elt F) → (⟨S128x1024x1, .f32⟩ : BufTy).Contents (Elt F)),
    StableHlo.unary main_v16 main_v17 (Host.rsqrt : (⟨S128x1024x1, .f32⟩ : BufTy).Contents (Elt F) → (⟨S128x1024x1, .f32⟩ : BufTy).Contents (Elt F)),
    StableHlo.unary main_v17 main_v18 (broadcastInDim S128x1024x512 ![0, 1, 2] bcast_S128x1024x1_S128x1024x512_0_1_2 : (⟨S128x1024x1, .f32⟩ : BufTy).Contents (Elt F) → (⟨S128x1024x512, .f32⟩ : BufTy).Contents (Elt F)),
    StableHlo.binary main_v14 main_v18 main_v19 (mulf : (⟨S128x1024x512, .f32⟩ : BufTy).Contents (Elt F) → (⟨S128x1024x512, .f32⟩ : BufTy).Contents (Elt F) → (⟨S128x1024x512, .f32⟩ : BufTy).Contents (Elt F)),
    StableHlo.unary main_arg4 main_v20 (broadcastInDim S1x1x512 ![2] bcast_S512_S1x1x512_2 : (⟨S512, .f32⟩ : BufTy).Contents (Elt F) → (⟨S1x1x512, .f32⟩ : BufTy).Contents (Elt F)),
    StableHlo.unary main_v20 main_v21 (broadcastInDim S128x1024x512 ![0, 1, 2] bcast_S1x1x512_S128x1024x512_0_1_2 : (⟨S1x1x512, .f32⟩ : BufTy).Contents (Elt F) → (⟨S128x1024x512, .f32⟩ : BufTy).Contents (Elt F)),
    StableHlo.binary main_v19 main_v21 main_v22 (mulf : (⟨S128x1024x512, .f32⟩ : BufTy).Contents (Elt F) → (⟨S128x1024x512, .f32⟩ : BufTy).Contents (Elt F) → (⟨S128x1024x512, .f32⟩ : BufTy).Contents (Elt F)),
    StableHlo.unary main_arg5 main_v23 (broadcastInDim S1x1x512 ![2] bcast_S512_S1x1x512_2 : (⟨S512, .f32⟩ : BufTy).Contents (Elt F) → (⟨S1x1x512, .f32⟩ : BufTy).Contents (Elt F)),
    StableHlo.unary main_v23 main_v24 (broadcastInDim S128x1024x512 ![0, 1, 2] bcast_S1x1x512_S128x1024x512_0_1_2 : (⟨S1x1x512, .f32⟩ : BufTy).Contents (Elt F) → (⟨S128x1024x512, .f32⟩ : BufTy).Contents (Elt F)),
    StableHlo.binary main_v22 main_v24 main_v25 (addf : (⟨S128x1024x512, .f32⟩ : BufTy).Contents (Elt F) → (⟨S128x1024x512, .f32⟩ : BufTy).Contents (Elt F) → (⟨S128x1024x512, .f32⟩ : BufTy).Contents (Elt F)) ]

set_option maxRecDepth 4096 in
/-- The main function is that straight line: the two outlined functions' definitions unfolded at their calls, the
    sequencing reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., unary_bufs_sub .., binary_bufs_sub ..,
    unary_bufs_sub .., unary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub ..⟩

/-- From any memory with zero counters every weakly fair execution terminates with each buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold at the result buffer is the composed term of the launch contents at the six arguments. -/
theorem result_eq (V : Valuation τ sig (Elt F)) :
    after ops V (main_v25 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- On the device, for any float values, from any memory with zero counters: every weakly fair execution of the
    reference terminates with its result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v25).trans (result_eq _),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_main m ρ)

end Cert.ReferenceIdeal.HandRun

end
-- ==== Proof.ReferenceReadHidden.lean ====
/-
  The reference's layout operations, its row sum and its projection, each read at one index, at the ideal values; and
  from them the pre-normalisation array at (p, s, h):
      (Σ_f x[p,s,f] · W[f,h] + Σ_f b[f,h]) + emb[s,h].
  A broadcast reads its operand at the coordinates it keeps; a sum over one axis from the zero word is the finite sum
  over that axis; the projection is the sum over the one contracted axis, re-indexed by its coordinate.
-/
import proofs.«174283_j27719718928452_1_alg».proof.Proof.ReferenceRun
import proofs.«174283_j27719718928452_1_alg».proof.Proof.LayerNormSpec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.HandRead

open Cert.ReferenceIdeal Cert.ReferenceIdeal.Gen Cert.ReferenceIdeal.HandRun Idealize.ShloMosaic Idealize.ShloMosaic.ValueIdx

/-! ## Broadcasts read at an index -/

/-- A lane vector broadcast along batch and position reads its lane. -/
theorem laneBcast_apply {α : Type} (v : S512.Idx → α) (p : Fin 128) (s : Fin 1024) (h : Fin 512) :
    broadcastInDim S128x1024x512 ![0, 1, 2] bcast_S1x1x512_S128x1024x512_0_1_2
      (broadcastInDim S1x1x512 ![2] bcast_S512_S1x1x512_2 v) (ix3 p s h) = v (ix1 h) := by
  refine (broadcastInDim_apply _ _ _ (ix3 p s h) (ix3 (0 : Fin 1) (0 : Fin 1) h) ?_).trans ?_
  · intro a; match a with | ⟨0, _⟩ => rfl | ⟨1, _⟩ => rfl | ⟨2, _⟩ => rfl
  · refine broadcastInDim_apply _ _ _ _ (ix1 h) ?_
    intro a; match a with | ⟨0, _⟩ => rfl

/-- A (position, lane) matrix broadcast along the batch reads its (position, lane) entry. -/
theorem posBcast_apply {α : Type} (v : S1024x512.Idx → α) (p : Fin 128) (s : Fin 1024) (h : Fin 512) :
    broadcastInDim S128x1024x512 ![0, 1, 2] bcast_S1x1024x512_S128x1024x512_0_1_2
      (broadcastInDim S1x1024x512 ![1, 2] bcast_S1024x512_S1x1024x512_1_2 v) (ix3 p s h) = v (ix2 s h) := by
  refine (broadcastInDim_apply _ _ _ (ix3 p s h) (ix3 (0 : Fin 1) s h) ?_).trans ?_
  · intro a; match a with | ⟨0, _⟩ => rfl | ⟨1, _⟩ => rfl | ⟨2, _⟩ => rfl
  · refine broadcastInDim_apply _ _ _ _ (ix2 s h) ?_
    intro a; match a with | ⟨0, _⟩ => rfl | ⟨1, _⟩ => rfl

/-- A column (one entry per batch and position) broadcast along the lanes reads its entry. -/
theorem colBcast_apply {α : Type} (v : S128x1024x1.Idx → α) (p : Fin 128) (s : Fin 1024) (h : Fin 512) :
    broadcastInDim S128x1024x512 ![0, 1, 2] bcast_S128x1024x1_S128x1024x512_0_1_2 v (ix3 p s h)
      = v (ix3 p s (0 : Fin 1)) := by
  refine broadcastInDim_apply _ _ _ (ix3 p s h) (ix3 p s (0 : Fin 1)) ?_
  intro a; match a with | ⟨0, _⟩ => rfl | ⟨1, _⟩ => rfl | ⟨2, _⟩ => rfl

/-- A (batch, position) matrix given a unit lane axis reads its entry. -/
theorem unitBcast_apply {α : Type} (v : S128x1024.Idx → α) (p : Fin 128) (s : Fin 1024) (z : Fin 1) :
    broadcastInDim S128x1024x1 ![0, 1] bcast_S128x1024_S128x1024x1_0_1 v (ix3 p s z) = v (ix2 p s) := by
  refine broadcastInDim_apply _ _ _ (ix3 p s z) (ix2 p s) ?_
  intro a; match a with | ⟨0, _⟩ => rfl | ⟨1, _⟩ => rfl

/-- A scalar broadcast to a column reads the scalar. -/
theorem scalarBcast_apply {α : Type} (v : S_.Idx → α) (j : S128x1024x1.Idx) :
    broadcastInDim S128x1024x1 ![] bcast_S_S128x1024x1 v j = v ix0 :=
  broadcastInDim_scalar_apply _ v j

/-! ## Sums read at an index -/

/-- The sum over the lanes from the zero word, at (p, s): the finite sum of the row. -/
theorem rowSum_apply (H : FVec Ideal S128x1024x512 .f32) (p : Fin 128) (s : Fin 1024) :
    Host.reduceAdd (F := Ideal) H (constant (F := Ideal) S_ .f32 0x00000000#32) reducesTo_S128x1024x512_S128x1024_d2 h_S_ (ix2 p s)
      = ∑ k : Fin 512, H (ix3 p s k) := by
  have hR : S128x1024x512.Reduces [2] S128x1024 := by decide
  refine (Ideal.hostReduceAdd_single reducesTo_S128x1024x512_S128x1024_d2 hR H _ (ix2 p s)).trans ?_
  refine (congrArg (· + _) Ideal.ofBits_zero_f32).trans ?_
  refine (zero_add _).trans ?_
  show (∑ k : Fin 512, H (hR.lift (ix2 p s) k)) = _
  refine Finset.sum_congr rfl fun k _ => congrArg H ?_
  funext a; match a with | ⟨0, _⟩ => rfl | ⟨1, _⟩ => rfl | ⟨2, _⟩ => rfl

/-- The sum of the bias over its first axis from the zero word, at lane h. -/
theorem biasSum_apply (b : FVec Ideal S16x512 .f32) (h : Fin 512) :
    Host.reduceAdd (F := Ideal) b (constant (F := Ideal) S_ .f32 0x00000000#32) reducesTo_S16x512_S512_d0 h_S_ (ix1 h)
      = ∑ f : Fin 16, b (ix2 f h) := by
  have hR : S16x512.Reduces [0] S512 := by decide
  refine (Ideal.hostReduceAdd_single reducesTo_S16x512_S512_d0 hR b _ (ix1 h)).trans ?_
  refine (congrArg (· + _) Ideal.ofBits_zero_f32).trans ?_
  refine (zero_add _).trans ?_
  show (∑ f : Fin 16, b (hR.lift (ix1 h) f)) = _
  refine Finset.sum_congr rfl fun f _ => congrArg b ?_
  funext a; match a with | ⟨0, _⟩ => rfl | ⟨1, _⟩ => rfl

/-! ## The projection read at an index -/

/-- The projection at (p, s, h): the sum over the sixteen contracted features, re-indexed by the feature. -/
theorem proj_apply (x : FVec Ideal S128x1024x16 .f32) (W : FVec Ideal S16x512 .f32) (p : Fin 128) (s : Fin 1024) (h : Fin 512) :
    Host.dotGeneral (F := Ideal) dot_S128x1024x16_S16x512_S128x1024x512_2_0_01_1_n_n none x W (ix3 p s h)
      = ∑ f : Fin 16, x (ix3 p s f) * W (ix2 f h) := by
  refine (Ideal.dotGeneral_apply dot_S128x1024x16_S16x512_S128x1024x512_2_0_01_1_n_n none .single x W (ix3 p s h)).trans ?_
  refine (Equiv.sum_comp (contrEquiv1 dot_S128x1024x16_S16x512_S128x1024x512_2_0_01_1_n_n 16 rfl rfl).symm _).symm.trans ?_
  refine Finset.sum_congr rfl fun f _ => ?_
  have hl : (dot_S128x1024x16_S16x512_S128x1024x512_2_0_01_1_n_n).lhsIdx (ix3 p s h) ((contrEquiv1 dot_S128x1024x16_S16x512_S128x1024x512_2_0_01_1_n_n 16 rfl rfl).symm f) = ix3 p s f := by
    funext a
    match a with
    | ⟨0, _⟩ => rfl
    | ⟨1, _⟩ => rfl
    | ⟨2, _⟩ =>
      exact Fin.ext (((dot_S128x1024x16_S16x512_S128x1024x512_2_0_01_1_n_n).lhsIdx_val_of_single rfl _ _).trans
        (contrEquiv1_symm_val dot_S128x1024x16_S16x512_S128x1024x512_2_0_01_1_n_n 16 rfl rfl f))
  have hr : (dot_S128x1024x16_S16x512_S128x1024x512_2_0_01_1_n_n).rhsIdx (ix3 p s h) ((contrEquiv1 dot_S128x1024x16_S16x512_S128x1024x512_2_0_01_1_n_n 16 rfl rfl).symm f) = ix2 f h := by
    funext a
    match a with
    | ⟨0, _⟩ =>
      exact Fin.ext (((dot_S128x1024x16_S16x512_S128x1024x512_2_0_01_1_n_n).rhsIdx_val_of_single rfl _ _).trans
        (contrEquiv1_symm_val dot_S128x1024x16_S16x512_S128x1024x512_2_0_01_1_n_n 16 rfl rfl f))
    | ⟨1, _⟩ => rfl
  rw [hl, hr]

/-! ## The pre-normalisation array read at an index -/

/-- At (p, s, h) the array the rows are normalised from is the specification's. -/
theorem hiddenTerm_apply (x : FVec Ideal S128x1024x16 .f32) (W b : FVec Ideal S16x512 .f32) (emb : FVec Ideal S1024x512 .f32)
    (p : Fin 128) (s : Fin 1024) (h : Fin 512) :
    hiddenTerm (F := Ideal) x W b emb (ix3 p s h) = Cert.LayerNormSpec.hidden x W b emb p s h := by
  unfold hiddenTerm Cert.LayerNormSpec.hidden
  refine (addf_apply _ _ _).trans ?_
  refine congrArg₂ (· + ·) ((addf_apply _ _ _).trans ?_) (posBcast_apply emb p s h)
  exact congrArg₂ (· + ·) (proj_apply x W p s h) ((laneBcast_apply _ p s h).trans (biasSum_apply b h))

end Cert.ReferenceIdeal.HandRead

end
-- ==== Proof.ReferenceReadVar.lean ====
/-
  The row statistics of the reference read at an index, at the ideal values: the mean column, the centred array, the
  variance's divisor and its guard, and the variance column.

  The divisor is the word 512.0 minus the integer 0 converted to a float: the integer 0 converts to the real 0, so the
  divisor is the word 512.0 itself. The guard compares the divisor with zero: the word 512.0 denotes the real 512, which is
  positive, so the guard holds at every index and the variance is the guarded quotient, never the fill value. No input
  needs to be finite: both sides are the same expression over the extended reals.
-/
import proofs.«174283_j27719718928452_1_alg».proof.Proof.ReferenceReadHidden

noncomputable section

open scoped BigOperators

namespace Cert.ReferenceIdeal.HandRead

open Cert.ReferenceIdeal Cert.ReferenceIdeal.Gen Cert.ReferenceIdeal.HandRun Idealize.ShloMosaic Idealize.ShloMosaic.ValueIdx

/-! ## The divisor and the guard -/

/-- The word 512.0 denotes the real 512. -/
theorem ofBits_512 : Ideal.ofBits .f32 0x44000000#32 = ((512 : ℝ) : EReal) := by
  simp [Ideal.ofBits, Ideal.ieee, -EReal.coe_mul]; norm_num

/-- The row length is positive. -/
theorem rowLen_pos : (0 : EReal) < Cert.LayerNormSpec.rowLen := by
  unfold Cert.LayerNormSpec.rowLen
  rw [ofBits_512]
  exact_mod_cast (by norm_num : (0 : ℝ) < 512)

/-- The variance's divisor, 512.0 − float(0), is the row length. -/
theorem countTerm_apply : countTerm (F := Ideal) ix0 = Cert.LayerNormSpec.rowLen := by
  unfold countTerm Cert.LayerNormSpec.rowLen
  show Ideal.ofBits .f32 0x44000000#32 - ((((0#32 : BitVec 32).toInt : ℤ) : ℝ) : EReal) = _
  have h0 : ((((0#32 : BitVec 32).toInt : ℤ) : ℝ) : EReal) = 0 := by simp
  rw [h0, sub_zero]

/-- The guard "divisor > 0" holds at every index. -/
theorem guard_apply (j : S128x1024x1.Idx) :
    broadcastInDim S128x1024x1 ![] bcast_S_S128x1024x1
      (cmpf .ogt (countTerm (F := Ideal)) (constant (F := Ideal) S_ .f32 0x00000000#32)) j = 1#1 := by
  refine (scalarBcast_apply _ j).trans ?_
  show Ideal.cmp .ogt (countTerm (F := Ideal) ix0) (Ideal.ofBits .f32 0x00000000#32) = 1#1
  rw [countTerm_apply, Ideal.ofBits_zero_f32]
  show BitVec.ofBool (decide ((0 : EReal) < Cert.LayerNormSpec.rowLen)) = 1#1
  rw [decide_eq_true rowLen_pos]
  rfl

/-! ## Mean, centred row, variance -/

/-- The mean column at (p, s): the specification's mean of the row. -/
theorem meanTerm_apply (H : FVec Ideal S128x1024x512 .f32) (p : Fin 128) (s : Fin 1024) (z : Fin 1) :
    meanTerm (F := Ideal) H (ix3 p s z) = Cert.LayerNormSpec.rowMean (fun k => H (ix3 p s k)) := by
  unfold meanTerm Cert.LayerNormSpec.rowMean Cert.LayerNormSpec.rowLen
  refine (hostDivf_apply _ _ _).trans ?_
  exact congrArg₂ Ideal.div ((unitBcast_apply _ p s z).trans (rowSum_apply H p s))
    ((scalarBcast_apply _ _).trans (constant_apply _ _))

/-- The centred array at (p, s, h): the specification's centred row. -/
theorem centredTerm_apply (H : FVec Ideal S128x1024x512 .f32) (p : Fin 128) (s : Fin 1024) (h : Fin 512) :
    centredTerm (F := Ideal) H (ix3 p s h) = Cert.LayerNormSpec.centred (fun k => H (ix3 p s k)) h := by
  unfold centredTerm Cert.LayerNormSpec.centred
  refine (subf_apply _ _ _).trans ?_
  exact congrArg (H (ix3 p s h) - ·) ((colBcast_apply _ p s h).trans (meanTerm_apply H p s 0))

/-- The variance column at (p, s): the guard holds, so it is the specification's variance of the row. -/
theorem varTerm_apply (H : FVec Ideal S128x1024x512 .f32) (p : Fin 128) (s : Fin 1024) (z : Fin 1) :
    varTerm (F := Ideal) H (ix3 p s z) = Cert.LayerNormSpec.rowVar (fun k => H (ix3 p s k)) := by
  unfold varTerm Cert.LayerNormSpec.rowVar
  refine (select_apply _ _ _ _).trans ?_
  refine (congrArg (fun c => Scalar.select c _ _) (guard_apply (ix3 p s z))).trans ?_
  refine (select_one _ _).trans ?_
  refine (hostDivf_apply _ _ _).trans ?_
  refine congrArg₂ Ideal.div ((unitBcast_apply _ p s z).trans ((rowSum_apply _ p s).trans
    (Finset.sum_congr rfl fun k _ => ?_))) ((scalarBcast_apply _ _).trans countTerm_apply)
  exact (mulf_apply _ _ _).trans (congrArg₂ (· * ·) (centredTerm_apply H p s k) (centredTerm_apply H p s k))

end Cert.ReferenceIdeal.HandRead

end
-- ==== Proof.ReferenceRead.lean ====
/-
  The reference's composed term equals the specification, index by index, at the ideal values.

  At (p, s, h) the normalisation reads the centred entry, times the reciprocal square root of the row's variance plus the
  offset word, times the lane's scale, plus the lane's shift; the row it normalises is the pre-normalisation array's row,
  which is the specification's. Both sides are then the same expression over the extended reals.
-/
import proofs.«174283_j27719718928452_1_alg».proof.Proof.ReferenceReadVar

noncomputable section

open scoped BigOperators

namespace Cert.ReferenceIdeal.HandRead

open Cert.ReferenceIdeal Cert.ReferenceIdeal.Gen Cert.ReferenceIdeal.HandRun Idealize.ShloMosaic Idealize.ShloMosaic.ValueIdx

/-- The normalised, scaled and shifted array at (p, s, h). -/
theorem normTerm_apply (H : FVec Ideal S128x1024x512 .f32) (gamma beta : FVec Ideal S512 .f32)
    (p : Fin 128) (s : Fin 1024) (h : Fin 512) :
    normTerm (F := Ideal) H gamma beta (ix3 p s h)
      = Cert.LayerNormSpec.normalised (fun k => H (ix3 p s k)) h * gamma (ix1 h) + beta (ix1 h) := by
  unfold normTerm Cert.LayerNormSpec.normalised
  refine (addf_apply _ _ _).trans ?_
  refine congrArg₂ (· + ·) ((mulf_apply _ _ _).trans (congrArg₂ (· * ·)
    ((mulf_apply _ _ _).trans (congrArg₂ (· * ·) (centredTerm_apply H p s h) ?_)) (laneBcast_apply gamma p s h)))
    (laneBcast_apply beta p s h)
  refine (colBcast_apply _ p s h).trans ?_
  show Ideal.rsqrt (addf (varTerm (F := Ideal) H)
      (broadcastInDim S128x1024x1 ![] bcast_S_S128x1024x1 (constant (F := Ideal) S_ .f32 0x3727C5AC#32)) (ix3 p s (0 : Fin 1)))
    = Ideal.rsqrt (Cert.LayerNormSpec.rowVar (fun k => H (ix3 p s k)) + Cert.LayerNormSpec.varEps)
  exact congrArg Ideal.rsqrt ((addf_apply _ _ _).trans (congrArg₂ (· + ·) (varTerm_apply H p s 0)
    ((scalarBcast_apply _ _).trans (constant_apply _ _))))

/-- The reference's composed term is the specification's result. -/
theorem refTerm_eq (x : FVec Ideal S128x1024x16 .f32) (W b : FVec Ideal S16x512 .f32) (emb : FVec Ideal S1024x512 .f32)
    (gamma beta : FVec Ideal S512 .f32) :
    HandRun.refTerm (F := Ideal) x W b emb gamma beta = Cert.LayerNormSpec.result x W b emb gamma beta := by
  funext i
  obtain ⟨p, s, h, rfl⟩ : ∃ (p : Fin 128) (s : Fin 1024) (h : Fin 512), i = ix3 p s h := ⟨i 0, i 1, i 2, eq_ix3 i⟩
  rw [Cert.LayerNormSpec.result_ix3]
  unfold refTerm Cert.LayerNormSpec.resultAt
  refine (normTerm_apply _ gamma beta p s h).trans ?_
  have hrow : (fun k => hiddenTerm (F := Ideal) x W b emb (ix3 p s k)) = Cert.LayerNormSpec.hidden x W b emb p s :=
    funext fun k => hiddenTerm_apply x W b emb p s k
  rw [hrow]

end Cert.ReferenceIdeal.HandRead

end
-- ==== Proof.lean ====
/-
  The certificate of a fused "linear projection + bias + position embedding + layer normalisation" kernel against its
  array-program reference.

  Both programs compute, for a batch entry p, a position s and a lane h,
      out[p,s,h] = ((row h − μ) · rsqrt (Σ_k (row k − μ)² / 512 + ε)) · γ[h] + β[h],
      row k = (Σ_f x[p,s,f] · W[f,k] + Σ_f b[f,k]) + emb[s,k],   μ = Σ_k row k / 512
  (Proof/LayerNormSpec.lean). The kernel does so one batch entry per grid point, on a block of 1024 rows (its operands
  rounded to bf16 before the matrix product, which is the identity on the extended reals): Proof/KernelPayload.lean reads
  the body's arithmetic at an entry and Proof/KernelBlocks.lean assembles the 128 blocks into the whole array. The
  reference does so on whole arrays, its variance through a helper that divides by 512 − 0 and guards the quotient by
  512 − 0 > 0: Proof/ReferenceRun.lean reads its run back as one term and the Proof/ReferenceRead modules read that term at
  an index. Over the extended reals the two are the same expression tree, sums being finite sums, so no finiteness of the
  inputs is used; the idealisation rewrote nothing, so the kernel's idealised form is its own text.
-/
import proofs.«174283_j27719718928452_1_alg».proof.Defs
import proofs.«174283_j27719718928452_1_alg».proof.Proof.Gen.Kernel
import proofs.«174283_j27719718928452_1_alg».proof.Proof.Gen.Kernel.Skeleton
import proofs.«174283_j27719718928452_1_alg».proof.Proof.Gen.Kernel.Launch
import proofs.«174283_j27719718928452_1_alg».proof.Proof.Gen.Kernel.Points
import proofs.«174283_j27719718928452_1_alg».proof.Proof.Gen.Kernel.Frame
import proofs.«174283_j27719718928452_1_alg».proof.Proof.Gen.KernelIdeal
import proofs.«174283_j27719718928452_1_alg».proof.Proof.Gen.KernelIdeal.Skeleton
import proofs.«174283_j27719718928452_1_alg».proof.Proof.Gen.KernelIdeal.Launch
import proofs.«174283_j27719718928452_1_alg».proof.Proof.Gen.KernelIdeal.Points
import proofs.«174283_j27719718928452_1_alg».proof.Proof.Gen.KernelIdeal.Frame
import proofs.«174283_j27719718928452_1_alg».proof.Proof.Gen.ReferenceIdeal
import proofs.«174283_j27719718928452_1_alg».proof.Proof.Gen.Pre_finite_inputs
import proofs.«174283_j27719718928452_1_alg».proof.Proof.KernelBlocks
import proofs.«174283_j27719718928452_1_alg».proof.Proof.ReferenceRun
import proofs.«174283_j27719718928452_1_alg».proof.Proof.ReferenceRead
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs to the end and leaves its arguments as they were: its run with the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- From memories that agree on the six arguments both programs end with the specification's array of those
    arguments: the kernel block by block, the reference operation by operation. -/
theorem algebraic : Cert.algebraic_KernelIdeal_ReferenceIdeal := by
  intro m ρ m' ρ' _ hagree
  refine ⟨fun c => Cert.KernelIdeal.Blocks.resultArr m c, Cert.KernelIdeal.Blocks.run m ρ, ?_⟩
  refine (θ_run Cert.ReferenceIdeal.defs _ _).mono (fun _ h c => ⟨(h c).1.trans ?_, (h c).2⟩)
    (Cert.ReferenceIdeal.HandRun.run (F := Ideal) m' ρ')
  obtain ⟨a0, a1, a2, a3, a4, a5⟩ := hagree c
  rw [Cert.ReferenceIdeal.HandRead.refTerm_eq, a0, a1, a2, a3, a4, a5]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
